-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S64x64 .f32) (main_arg9 : FVec F S64x64 .f32) (main_arg10 : FVec F S64 .f32) (main_arg11 : FVec F S64x1 .f32) (main_arg12 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg11
  let main_cst_18 : FVec F S_ .f32 := constant S_ .f32 0x7F800000#32
  let main_v50 : FVec F S64x1 .f32 := broadcastInDim S64x1 ![] bcast_S_S64x1 main_cst_18
  fn_part3 (F := F) main_arg12 main_v48 main_v49 main_v50

def fn_part1 {F : FTy → Type} [FloatOps F] (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S64x1 .f32) (main_arg12 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x64 .f32) (main_arg1 : IVec S2x1200000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S64x1 .f32) (main_arg12 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1x64 : Shape := ⟨2, ![1, 64]⟩
abbrev S5000x64 : Shape := ⟨2, ![5000, 64]⟩
abbrev S1x1 : Shape := ⟨2, ![1, 1]⟩
abbrev S100000x1 : Shape := ⟨2, ![100000, 1]⟩
abbrev S5000x1 : Shape := ⟨2, ![5000, 1]⟩

abbrev nBuf : Space → Nat
  | .hbm => 64
  | .vmem => 33
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x1200000, .i32⟩
  | .hbm, ⟨14, _⟩ => ⟨S1200000, .i32⟩
  | .hbm, ⟨15, _⟩ => ⟨S1x1200000, .i32⟩
  | .hbm, ⟨16, _⟩ => ⟨S1200000, .i32⟩
  | .hbm, ⟨17, _⟩ => ⟨S_, .i32⟩
  | .hbm, ⟨18, _⟩ => ⟨S1200000, .i32⟩
  | .hbm, ⟨19, _⟩ => ⟨S1200000, .i1⟩
  | .hbm, ⟨20, _⟩ => ⟨S_, .i32⟩
  | .hbm, ⟨21, _⟩ => ⟨S1200000, .i32⟩
  | .hbm, ⟨22, _⟩ => ⟨S1200000, .i32⟩
  | .hbm, ⟨23, _⟩ => ⟨S1200000, .i32⟩
  | .hbm, ⟨24, _⟩ => ⟨S1200000x1, .i32⟩
  | .hbm, ⟨25, _⟩ => ⟨S1200000x64, .f32⟩
  | .hbm, ⟨26, _⟩ => ⟨S_, .f32⟩
  | .hbm, ⟨27, _⟩ => ⟨S100000x64, .f32⟩
  | .hbm, ⟨28, _⟩ => ⟨S1200000x1, .i32⟩
  | .hbm, ⟨29, _⟩ => ⟨S100000x64, .f32⟩
  | .hbm, ⟨30, _⟩ => ⟨S1x64, .f32⟩
  | .hbm, ⟨31, _⟩ => ⟨S100000x64, .f32⟩
  | .hbm, ⟨32, _⟩ => ⟨S_, .i32⟩
  | .hbm, ⟨33, _⟩ => ⟨S1200000, .i32⟩
  | .hbm, ⟨34, _⟩ => ⟨S1200000, .i1⟩
  | .hbm, ⟨35, _⟩ => ⟨S_, .i32⟩
  | .hbm, ⟨36, _⟩ => ⟨S1200000, .i32⟩
  | .hbm, ⟨37, _⟩ => ⟨S1200000, .i32⟩
  | .hbm, ⟨38, _⟩ => ⟨S1200000, .i32⟩
  | .hbm, ⟨39, _⟩ => ⟨S1200000x1, .i32⟩
  | .hbm, ⟨40, _⟩ => ⟨S1200000x64, .f32⟩
  | .hbm, ⟨41, _⟩ => ⟨S_, .f32⟩
  | .hbm, ⟨42, _⟩ => ⟨S100000x64, .f32⟩
  | .hbm, ⟨43, _⟩ => ⟨S1200000x1, .i32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S_, .i32⟩
  | .hbm, ⟨48, _⟩ => ⟨S1200000, .i32⟩
  | .hbm, ⟨49, _⟩ => ⟨S1200000, .i1⟩
  | .hbm, ⟨50, _⟩ => ⟨S_, .i32⟩
  | .hbm, ⟨51, _⟩ => ⟨S1200000, .i32⟩
  | .hbm, ⟨52, _⟩ => ⟨S1200000, .i32⟩
  | .hbm, ⟨53, _⟩ => ⟨S1200000, .i32⟩
  | .hbm, ⟨54, _⟩ => ⟨S1200000x1, .i32⟩
  | .hbm, ⟨55, _⟩ => ⟨S1200000x64, .f32⟩
  | .hbm, ⟨56, _⟩ => ⟨S_, .f32⟩
  | .hbm, ⟨57, _⟩ => ⟨S100000x64, .f32⟩
  | .hbm, ⟨58, _⟩ => ⟨S1200000x1, .i32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S1x1, .f32⟩
  | .hbm, ⟨63, _⟩ => ⟨S100000x1, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S64x1, .f32⟩
  | .local _ .vmem, ⟨30, _⟩ => ⟨S1x1, .f32⟩
  | .local _ .vmem, ⟨31, _⟩ => ⟨S5000x1, .f32⟩
  | .local _ .vmem, ⟨32, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x1.size a ≤ S64x1.size a
  hwx3_1 : ∀ i : grid3.Coords, EltTy.bits .f32 = 32 ∨ (Rect.block (s := S64x1) S64x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .f32 = 32 ∨ (Rect.block (s := S100000x1) S5000x1.size (cc3_transform_3 i) (hinb3_3 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v27) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v39) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S64x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S5000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 86
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x1200000, .i32⟩
  | .hbm, ⟨14, _⟩ => ⟨S1200000, .i32⟩
  | .hbm, ⟨15, _⟩ => ⟨S1x1200000, .i32⟩
  | .hbm, ⟨16, _⟩ => ⟨S1200000, .i32⟩
  | .hbm, ⟨17, _⟩ => ⟨S_, .i32⟩
  | .hbm, ⟨18, _⟩ => ⟨S1200000, .i32⟩
  | .hbm, ⟨19, _⟩ => ⟨S1200000, .i1⟩
  | .hbm, ⟨20, _⟩ => ⟨S_, .i32⟩
  | .hbm, ⟨21, _⟩ => ⟨S1200000, .i32⟩
  | .hbm, ⟨22, _⟩ => ⟨S1200000, .i32⟩
  | .hbm, ⟨23, _⟩ => ⟨S1200000, .i32⟩
  | .hbm, ⟨24, _⟩ => ⟨S1200000x1, .i32⟩
  | .hbm, ⟨25, _⟩ => ⟨S1200000x64, .f32⟩
  | .hbm, ⟨26, _⟩ => ⟨S_, .f32⟩
  | .hbm, ⟨27, _⟩ => ⟨S100000x64, .f32⟩
  | .hbm, ⟨28, _⟩ => ⟨S1200000x1, .i32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S_, .i32⟩
  | .hbm, ⟨37, _⟩ => ⟨S1200000, .i32⟩
  | .hbm, ⟨38, _⟩ => ⟨S1200000, .i1⟩
  | .hbm, ⟨39, _⟩ => ⟨S_, .i32⟩
  | .hbm, ⟨40, _⟩ => ⟨S1200000, .i32⟩
  | .hbm, ⟨41, _⟩ => ⟨S1200000, .i32⟩
  | .hbm, ⟨42, _⟩ => ⟨S1200000, .i32⟩
  | .hbm, ⟨43, _⟩ => ⟨S1200000x1, .i32⟩
  | .hbm, ⟨44, _⟩ => ⟨S1200000x64, .f32⟩
  | .hbm, ⟨45, _⟩ => ⟨S_, .f32⟩
  | .hbm, ⟨46, _⟩ => ⟨S100000x64, .f32⟩
  | .hbm, ⟨47, _⟩ => ⟨S1200000x1, .i32⟩
  | .hbm, ⟨48, _⟩ => ⟨S100000x64, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .hbm, ⟨55, _⟩ => ⟨S_, .i32⟩
  | .hbm, ⟨56, _⟩ => ⟨S1200000, .i32⟩
  | .hbm, ⟨57, _⟩ => ⟨S1200000, .i1⟩
  | .hbm, ⟨58, _⟩ => ⟨S_, .i32⟩
  | .hbm, ⟨59, _⟩ => ⟨S1200000, .i32⟩
  | .hbm, ⟨60, _⟩ => ⟨S1200000, .i32⟩
  | .hbm, ⟨61, _⟩ => ⟨S1200000, .i32⟩
  | .hbm, ⟨62, _⟩ => ⟨S1200000x1, .i32⟩
  | .hbm, ⟨63, _⟩ => ⟨S1200000x64, .f32⟩
  | .hbm, ⟨64, _⟩ => ⟨S_, .f32⟩
  | .hbm, ⟨65, _⟩ => ⟨S100000x64, .f32⟩
  | .hbm, ⟨66, _⟩ => ⟨S1200000x1, .i32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S100000x1, .f32⟩
  | .hbm, ⟨75, _⟩ => ⟨S1x1, .f32⟩
  | .hbm, ⟨76, _⟩ => ⟨S100000x1, .f32⟩
  | .hbm, ⟨77, _⟩ => ⟨S100000x1, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S100000x1, .f32⟩
  | .hbm, ⟨82, _⟩ => ⟨S100000x1, .f32⟩
  | .hbm, ⟨83, _⟩ => ⟨S_, .f32⟩
  | .hbm, ⟨84, _⟩ => ⟨S100000x1, .f32⟩
  | .hbm, ⟨85, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_1 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_4 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_7 : Ref sig .tc := ⟨.hbm, 78, rfl⟩
abbrev main_cst_8 : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_v56 : Ref sig .tc := ⟨.hbm, 85, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel's run, with the result buffer read.

  @main is four pipelined regions among four stretches of host operations. The library's launch theorem for such a
  program (`Pipeline.θ_run_regions_kit`) ends, on every core, with every unscoped buffer at the last boundary's
  contents `W8`: the fold, through @main, of "a stretch's operations applied" and "a region's arrays at what its
  write-backs leave". The generated frame keeps of this only that the thirteen arguments end as launched. Here the same
  launch is restated keeping ALL of it (`run_all`), and from it the run is posted with the result buffer at `W8`
  beside the arguments (`run_result`). What `W8` holds at the result buffer is a separate, pure computation.
-/
import proofs.«118440_j65395172049088_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in every final state each unscoped
    buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The run with the result buffer at the last boundary's contents and the thirteen arguments as launched. -/
theorem run_result : θ_run defs (onTc (τ := τ) (main (F := F))) ⟨m, fun _ => 0, ρ⟩ (fun r => ∀ c : Dev nD,
      r.2.mem ((c.tc : Thread nD τ).loc main_v41) = W8 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
      ⟨h c _ (mem_uc main_v41 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)
    (run_all m ρ)

end Cert.KernelIdeal.Run

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibGraphConv.lean ====
/-
  A graph-convolution layer and a clipped linear head, on the extended reals.

  A matrix is a function of a rank-2 index. The CONVOLUTION layer of node features x, aggregated neighbour features a,
  a root weight wr, a neighbour weight wn and a 1×N bias row b has entry (p, c) equal to
      (Σ_q x[p,q] · wr[q,c]  +  Σ_q a[p,q] · wn[q,c])  +  b[0,c],
  and the HEAD of features x, a weight w, a bias row b and two bounds has entry (p, c) equal to
      min hi (max lo (Σ_q x[p,q] · w[q,c] + b[0,c])).
  Three kinds of facts, for any extents, no program needed:

  * entry (p, c) depends on row p of the feature operands only (`conv_at`, `head_at`), which is what lets a block
    computed from a tile of rows be read as a block of the layer of the whole arrays;
  * two products into zero accumulators added, plus the bias row repeated down the rows, is the convolution layer as a
    whole array, both in the vector unit's spelling (`conv_unit`) and in the host's (`conv_host`); likewise the head
    (`head_unit`, `head_host`), for dimension numbers contracting the left operand's second axis against the right
    operand's first;
  * a length-A vector laid out as a 1×A row by a reshape or by a broadcast along axis 1 is the same row, for every A,
    A = 1 included (`reshape_row`, `bcast_row`).
-/
import Idealize.ShloMosaic.PureOps.Ideal.Laws
import Idealize.ShloMosaic.Lib.ValueIdx
import Idealize.ShloMosaic.Lib.ValueLayout
import Idealize.ShloMosaic.Lib.Pipeline.Value
import proofs.«118440_j65395172049088_1_alg».proof.Proof.LibPlainDot

noncomputable section

open scoped BigOperators

namespace Cert.GraphConv

open Idealize.ShloMosaic Idealize.ShloMosaic.ValueIdx

/-- An A×B matrix of extended reals. -/
abbrev Mat (A B : Nat) : Type := (⟨2, ![A, B]⟩ : Shape).Idx → EReal
/-- A length-A vector of extended reals. -/
abbrev Vect (A : Nat) : Type := (⟨1, ![A]⟩ : Shape).Idx → EReal

/-! ## A vector as a row -/

/-- A vector laid out as a 1×A row. -/
def row {α : Type} {A : Nat} (v : (⟨1, ![A]⟩ : Shape).Idx → α) : (⟨2, ![1, A]⟩ : Shape).Idx → α := fun i => v (ix1 (i 1))

theorem row_apply {α : Type} {A : Nat} (v : (⟨1, ![A]⟩ : Shape).Idx → α) (u : Fin 1) (c : Fin A) : row v (ix2 u c) = v (ix1 c) := rfl

/-- A vector reshaped to a 1×A row is that row. -/
theorem reshape_row {α : Type} {A : Nat} (v : (⟨1, ![A]⟩ : Shape).Idx → α) (h : (⟨1, ![A]⟩ : Shape).ShapeCasts ⟨2, ![1, A]⟩) :
    shapeCast ⟨2, ![1, A]⟩ v h = row v := by
  funext i
  obtain ⟨u, q, rfl⟩ : ∃ (u : Fin 1) (q : Fin A), i = ix2 u q := ⟨i 0, i 1, eq_ix2 i⟩
  rw [shapeCast_a_1a_apply, row_apply]

/-- A vector broadcast to a 1×A row along axis 1 is that row (a unit extent is read at coordinate zero, which is
    the only coordinate it has). -/
theorem bcast_row {α : Type} {A : Nat} (v : (⟨1, ![A]⟩ : Shape).Idx → α)
    (h : (⟨1, ![A]⟩ : Shape).BroadcastsInDim ⟨2, ![1, A]⟩ ![1]) :
    broadcastInDim ⟨2, ![1, A]⟩ ![1] h v = row v := by
  funext i
  obtain ⟨u, q, rfl⟩ : ∃ (u : Fin 1) (q : Fin A), i = ix2 u q := ⟨i 0, i 1, eq_ix2 i⟩
  rw [row_apply]
  exact broadcastInDim_apply ![1] h v (ix2 u q) (ix1 q) (fun a => by
    match a with
    | ⟨0, _⟩ =>
      show q.val = if A = 1 then 0 else q.val
      split
      · have := q.isLt; omega
      · rfl)

/-- A 1×N row repeated down M rows by a broadcast along axes (0, 1), at entry (p, c). -/
theorem rows_apply {α : Type} {M N : Nat} (b : (⟨2, ![1, N]⟩ : Shape).Idx → α)
    (h : (⟨2, ![1, N]⟩ : Shape).BroadcastsInDim ⟨2, ![M, N]⟩ ![0, 1]) (p : Fin M) (c : Fin N) :
    broadcastInDim ⟨2, ![M, N]⟩ ![0, 1] h b (ix2 p c) = b (ix2 (0 : Fin 1) c) :=
  broadcastInDim_apply ![0, 1] h b (ix2 p c) (ix2 (0 : Fin 1) c) (fun a => by
    match a with
    | ⟨0, _⟩ =>
      show (0 : ℕ) = if (1 : ℕ) = 1 then 0 else p.val
      rw [if_pos rfl]
    | ⟨1, _⟩ =>
      show c.val = if N = 1 then 0 else c.val
      split
      · have := c.isLt; omega
      · rfl)

/-- A rank-0 value broadcast over a shape, at any entry. -/
theorem splat_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply (s := ⟨0, ![]⟩) ![] h x i ix0 (fun a => a.elim0)

/-! ## The layers -/

/-- x · wr + a · wn + b, the bias a 1×N row repeated down the rows. -/
def conv {M K N : Nat} (x a : Mat M K) (wr wn : Mat K N) (b : Mat 1 N) : Mat M N :=
  fun j => (∑ q : Fin K, x (ix2 (j 0) q) * wr (ix2 q (j 1)) + ∑ q : Fin K, a (ix2 (j 0) q) * wn (ix2 q (j 1)))
    + b (ix2 (0 : Fin 1) (j 1))

theorem conv_apply {M K N : Nat} (x a : Mat M K) (wr wn : Mat K N) (b : Mat 1 N) (p : Fin M) (c : Fin N) :
    conv x a wr wn b (ix2 p c)
      = (∑ q : Fin K, x (ix2 p q) * wr (ix2 q c) + ∑ q : Fin K, a (ix2 p q) * wn (ix2 q c)) + b (ix2 (0 : Fin 1) c) := rfl

/-- min hi (max lo (x · w + b)). -/
def head {M K N : Nat} (lo hi : EReal) (x : Mat M K) (w : Mat K N) (b : Mat 1 N) : Mat M N :=
  fun j => min hi (max lo (∑ q : Fin K, x (ix2 (j 0) q) * w (ix2 q (j 1)) + b (ix2 (0 : Fin 1) (j 1))))

theorem head_apply {M K N : Nat} (lo hi : EReal) (x : Mat M K) (w : Mat K N) (b : Mat 1 N) (p : Fin M) (c : Fin N) :
    head lo hi x w b (ix2 p c) = min hi (max lo (∑ q : Fin K, x (ix2 p q) * w (ix2 q c) + b (ix2 (0 : Fin 1) c))) := rfl

/-! ## An entry depends on one row of the features -/

/-- Entry j of the layer of a tile is entry i of the layer of the whole arrays when j and i name the same column
    and row (j 0) of the tile's features is row (i 0) of the whole features. -/
theorem conv_at {M M' K N : Nat} (x a : Mat M K) (x' a' : Mat M' K) (wr wn : Mat K N) (b : Mat 1 N)
    (j : (⟨2, ![M, N]⟩ : Shape).Idx) (i : (⟨2, ![M', N]⟩ : Shape).Idx) (hc : j 1 = i 1)
    (hx : ∀ q : Fin K, x (ix2 (j 0) q) = x' (ix2 (i 0) q)) (ha : ∀ q : Fin K, a (ix2 (j 0) q) = a' (ix2 (i 0) q)) :
    conv x a wr wn b j = conv x' a' wr wn b i := by
  unfold conv
  rw [hc]
  simp only [hx, ha]

theorem head_at {M M' K N : Nat} (lo hi : EReal) (x : Mat M K) (x' : Mat M' K) (w : Mat K N) (b : Mat 1 N)
    (j : (⟨2, ![M, N]⟩ : Shape).Idx) (i : (⟨2, ![M', N]⟩ : Shape).Idx) (hc : j 1 = i 1)
    (hx : ∀ q : Fin K, x (ix2 (j 0) q) = x' (ix2 (i 0) q)) :
    head lo hi x w b j = head lo hi x' w b i := by
  unfold head
  rw [hc]
  simp only [hx]

/-! ## The layers as the vector unit and the host compute them -/

section Spellings
variable {M K N : Nat} {d : DotDims ⟨2, ![M, K]⟩ ⟨2, ![K, N]⟩ ⟨2, ![M, N]⟩}

/-- Two products into zero accumulators, added, plus the bias row broadcast down the rows: the convolution layer. -/
theorem conv_unit (hd : Cert.PlainDot.IsPlain d) (prec : Option ContractPrecision) {φ₁ φ₂ : FTy}
    (x a : FVec Ideal ⟨2, ![M, K]⟩ φ₁) (wr wn : FVec Ideal ⟨2, ![K, N]⟩ φ₂) (b : FVec Ideal ⟨2, ![1, N]⟩ .f32)
    (hb : (⟨2, ![1, N]⟩ : Shape).Broadcasts ⟨2, ![M, N]⟩) :
    addf (addf (matmul d prec x wr (constant ⟨2, ![M, N]⟩ .f32 0x00000000#32))
          (matmul d prec a wn (constant ⟨2, ![M, N]⟩ .f32 0x00000000#32))) (broadcastTo ⟨2, ![M, N]⟩ b hb)
      = conv x a wr wn b := by
  funext j
  obtain ⟨p, c, rfl⟩ : ∃ (p : Fin M) (c : Fin N), j = ix2 p c := ⟨j 0, j 1, eq_ix2 j⟩
  rw [addf_apply, addf_apply, Cert.PlainDot.matmul_zero_apply hd, Cert.PlainDot.matmul_zero_apply hd,
    broadcastTo_1b_ab_apply, conv_apply]

/-- The host's two products added, plus the bias row repeated down the rows: the convolution layer. -/
theorem conv_host (hd : Cert.PlainDot.IsPlain d) (prec : Option ContractPrecision) {φ₁ φ₂ : FTy}
    (x a : FVec Ideal ⟨2, ![M, K]⟩ φ₁) (wr wn : FVec Ideal ⟨2, ![K, N]⟩ φ₂) (b : FVec Ideal ⟨2, ![1, N]⟩ .f32)
    (h2 : (⟨2, ![1, N]⟩ : Shape).BroadcastsInDim ⟨2, ![M, N]⟩ ![0, 1]) :
    addf (addf (Host.dotGeneral d prec x wr) (Host.dotGeneral d prec a wn)) (broadcastInDim ⟨2, ![M, N]⟩ ![0, 1] h2 b)
      = conv x a wr wn b := by
  funext j
  obtain ⟨p, c, rfl⟩ : ∃ (p : Fin M) (c : Fin N), j = ix2 p c := ⟨j 0, j 1, eq_ix2 j⟩
  rw [addf_apply, addf_apply, Cert.PlainDot.dotGeneral_apply hd, Cert.PlainDot.dotGeneral_apply hd, rows_apply, conv_apply]

/-- A product into a zero accumulator plus the bias row, clamped between two splat words: the head. -/
theorem head_unit (hd : Cert.PlainDot.IsPlain d) (prec : Option ContractPrecision) {φ₁ φ₂ : FTy} (lo hi : BitVec 32)
    (x : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) :
    minimumf (broadcast ⟨2, ![M, N]⟩ (Scalar.ofBits (F := Ideal) .f32 hi))
        (maximumf (broadcast ⟨2, ![M, N]⟩ (Scalar.ofBits (F := Ideal) .f32 lo))
          (addf (matmul d prec x w (constant ⟨2, ![M, N]⟩ .f32 0x00000000#32)) (broadcastTo ⟨2, ![M, N]⟩ b hb)))
      = head (Ideal.ofBits .f32 lo) (Ideal.ofBits .f32 hi) x w b := by
  funext j
  obtain ⟨p, c, rfl⟩ : ∃ (p : Fin M) (c : Fin N), j = ix2 p c := ⟨j 0, j 1, eq_ix2 j⟩
  rw [minimumf_apply, maximumf_apply, addf_apply, Cert.PlainDot.matmul_zero_apply hd, broadcastTo_1b_ab_apply, head_apply]
  rfl

/-- The host's product plus the bias row, clamped between two rank-0 words broadcast over the shape: the head. -/
theorem head_host (hd : Cert.PlainDot.IsPlain d) (prec : Option ContractPrecision) {φ₁ φ₂ : FTy} (lo hi : BitVec 32)
    (x : FVec Ideal ⟨2, ![M, K]⟩ φ₁) (w : FVec Ideal ⟨2, ![K, N]⟩ φ₂) (b : FVec Ideal ⟨2, ![1, N]⟩ .f32)
    (h2 : (⟨2, ![1, N]⟩ : Shape).BroadcastsInDim ⟨2, ![M, N]⟩ ![0, 1])
    (h0 : (⟨0, ![]⟩ : Shape).BroadcastsInDim ⟨2, ![M, N]⟩ ![]) :
    minimumf (broadcastInDim ⟨2, ![M, N]⟩ ![] h0 (constant (F := Ideal) ⟨0, ![]⟩ .f32 hi))
        (maximumf (broadcastInDim ⟨2, ![M, N]⟩ ![] h0 (constant (F := Ideal) ⟨0, ![]⟩ .f32 lo))
          (addf (Host.dotGeneral d prec x w) (broadcastInDim ⟨2, ![M, N]⟩ ![0, 1] h2 b)))
      = head (Ideal.ofBits .f32 lo) (Ideal.ofBits .f32 hi) x w b := by
  funext j
  obtain ⟨p, c, rfl⟩ : ∃ (p : Fin M) (c : Fin N), j = ix2 p c := ⟨j 0, j 1, eq_ix2 j⟩
  rw [minimumf_apply, maximumf_apply, addf_apply, Cert.PlainDot.dotGeneral_apply hd, rows_apply, splat_apply, splat_apply,
    head_apply]
  rfl

end Spellings

end Cert.GraphConv

end
-- ==== Proof.Network.lean ====
/-
  The network both programs compute, as one function of the thirteen argument arrays.

  The edge list e is a 2×1200000 integer array: row 0 the source node of each edge, row 1 its destination. Each of
  the three layers maps node features x (100000×64) to
      x · wr  +  aggregate(x) · wn  +  b,
  where aggregate(x) sums, into each destination row, the source rows of the edges arriving there: a row gather of x
  at the source indices (a negative index wrapped once by adding 100000, as jax's indexing does) followed by a
  scatter-add into a zero array at the destination indices. Gather and scatter-add are the host's operations on both
  sides of the claim and are never opened here. The head maps the last features to min(4, max(-4, x · wout + bout)).
  The bias vectors enter as 1×64 (1×1) rows repeated down the node rows.
-/
import proofs.«118440_j65395172049088_1_alg».proof.Proof.Gen.KernelIdeal
import proofs.«118440_j65395172049088_1_alg».proof.Proof.LibGraphConv

noncomputable section

namespace Cert.Net

open Cert.KernelIdeal Cert.KernelIdeal.Facts₀ Cert.GraphConv
open Idealize.ShloMosaic Idealize.ShloMosaic.TcCoe

/-- The edge list, a vector of node indices, node features, a layer's weight and bias, the head's weight and bias. -/
abbrev Edges : Type := (⟨S2x1200000, .i32⟩ : BufTy).Contents (Elt Ideal)
abbrev Nodes : Type := (⟨S1200000, .i32⟩ : BufTy).Contents (Elt Ideal)
abbrev Feat : Type := (⟨S100000x64, .f32⟩ : BufTy).Contents (Elt Ideal)
abbrev Wt : Type := (⟨S64x64, .f32⟩ : BufTy).Contents (Elt Ideal)
abbrev Bias : Type := (⟨S64, .f32⟩ : BufTy).Contents (Elt Ideal)
abbrev WOut : Type := (⟨S64x1, .f32⟩ : BufTy).Contents (Elt Ideal)
abbrev BOut : Type := (⟨S1, .f32⟩ : BufTy).Contents (Elt Ideal)

/-- Row 0 of the edge list: each edge's source node. -/
def srcRow (e : Edges) : Nodes :=
  shapeCast _ (extractStridedSlice S1x1200000 ![0, 0] e slices_S2x1200000_S1x1200000_0_0) shapeCasts_S1x1200000_S1200000

/-- Row 1 of the edge list: each edge's destination node. -/
def dstRow (e : Edges) : Nodes :=
  shapeCast _ (extractStridedSlice S1x1200000 ![1, 0] e slices_S2x1200000_S1x1200000_1_0) shapeCasts_S1x1200000_S1200000

/-- Sum over the edges, into each destination row, of the source rows of x (negative source indices wrapped once by
    the number of nodes). -/
def aggregate (x : Feat) (s d : Nodes) : Feat :=
  Host.scatterAdd (F := Ideal) scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 d)
    (Host.gather gather_S100000x64_S1200000x1_S1200000x64_1_0_n_n_0_1_164 x
      (broadcastInDim S1200000x1 ![0] bcast_S1200000_S1200000x1_0
        (select (cmpi .slt s (broadcastInDim S1200000 ![] bcast_S_S1200000 (constantI S_ 32 0#32)))
          (addi s (broadcastInDim S1200000 ![] bcast_S_S1200000 (constantI S_ 32 100000#32))) s)))

/-- One layer: x · wr + aggregate(x) · wn + b. -/
def layer (s d : Nodes) (x : Feat) (wr wn : Wt) (b : Bias) : Feat :=
  conv x (aggregate x s d) wr wn (row b)

/-- The bounds of the head: the float words of -4.0 and 4.0 read on the extended reals. -/
abbrev lo : EReal := Ideal.ofBits .f32 0xC0800000#32
abbrev hi : EReal := Ideal.ofBits .f32 0x40800000#32

/-- The whole network. -/
def net (x : Feat) (e : Edges) (wr0 wn0 : Wt) (b0 : Bias) (wr1 wn1 : Wt) (b1 : Bias) (wr2 wn2 : Wt) (b2 : Bias)
    (wout : WOut) (bout : BOut) : (⟨S100000x1, .f32⟩ : BufTy).Contents (Elt Ideal) :=
  head lo hi
    (layer (srcRow e) (dstRow e) (layer (srcRow e) (dstRow e) (layer (srcRow e) (dstRow e) x wr0 wn0 b0) wr1 wn1 b1) wr2 wn2 b2)
    wout (row bout)

end Cert.Net

end
-- ==== Proof.Carry.lean ====
/-
  Buffers that @main carries unchanged from the launch to where they are read.

  The contents of a core's buffers at the eight segment boundaries of @main are a fold from the launch memory: a host
  stretch applies its operations, a region replaces its arrays by what its write-backs leave. A weight or bias argument
  is written by no operation and by no region before the region that reads it, so at that region's entry it still
  holds the launch contents; the two rows of the edge list (the source and the destination node of each edge) are
  computed once by the first stretch and then carried the same way to the second and third aggregations. Each fact
  below walks one buffer back through the boundaries to that closed form.
-/
import proofs.«118440_j65395172049088_1_alg».proof.Proof.Gen.KernelIdeal.Frame
import proofs.«118440_j65395172049088_1_alg».proof.Proof.Network
import Idealize.ShloMosaic.Lib.StableHlo.Run

set_option maxRecDepth 16384

noncomputable section

namespace Cert.KernelIdeal.Carry

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Boundary 1 -/

theorem w1_arg0 : W1 m ρ c (Proc.devRef .tc main_arg0) = m ((c.tc : Thread nD τ).loc main_arg0) := by
  show StableHlo.after hostOps0 (W0 m ρ c) (Proc.devRef .tc main_arg0) = W0 m ρ c (Proc.devRef .tc main_arg0)
  after_results
theorem w1_arg2 : W1 m ρ c (Proc.devRef .tc main_arg2) = m ((c.tc : Thread nD τ).loc main_arg2) := by
  show StableHlo.after hostOps0 (W0 m ρ c) (Proc.devRef .tc main_arg2) = W0 m ρ c (Proc.devRef .tc main_arg2)
  after_results
theorem w1_arg3 : W1 m ρ c (Proc.devRef .tc main_arg3) = m ((c.tc : Thread nD τ).loc main_arg3) := by
  show StableHlo.after hostOps0 (W0 m ρ c) (Proc.devRef .tc main_arg3) = W0 m ρ c (Proc.devRef .tc main_arg3)
  after_results
theorem w1_arg4 : W1 m ρ c (Proc.devRef .tc main_arg4) = m ((c.tc : Thread nD τ).loc main_arg4) := by
  show StableHlo.after hostOps0 (W0 m ρ c) (Proc.devRef .tc main_arg4) = W0 m ρ c (Proc.devRef .tc main_arg4)
  after_results
theorem w1_arg5 : W1 m ρ c (Proc.devRef .tc main_arg5) = m ((c.tc : Thread nD τ).loc main_arg5) := by
  show StableHlo.after hostOps0 (W0 m ρ c) (Proc.devRef .tc main_arg5) = W0 m ρ c (Proc.devRef .tc main_arg5)
  after_results
theorem w1_arg6 : W1 m ρ c (Proc.devRef .tc main_arg6) = m ((c.tc : Thread nD τ).loc main_arg6) := by
  show StableHlo.after hostOps0 (W0 m ρ c) (Proc.devRef .tc main_arg6) = W0 m ρ c (Proc.devRef .tc main_arg6)
  after_results
theorem w1_arg7 : W1 m ρ c (Proc.devRef .tc main_arg7) = m ((c.tc : Thread nD τ).loc main_arg7) := by
  show StableHlo.after hostOps0 (W0 m ρ c) (Proc.devRef .tc main_arg7) = W0 m ρ c (Proc.devRef .tc main_arg7)
  after_results
theorem w1_arg8 : W1 m ρ c (Proc.devRef .tc main_arg8) = m ((c.tc : Thread nD τ).loc main_arg8) := by
  show StableHlo.after hostOps0 (W0 m ρ c) (Proc.devRef .tc main_arg8) = W0 m ρ c (Proc.devRef .tc main_arg8)
  after_results
theorem w1_arg9 : W1 m ρ c (Proc.devRef .tc main_arg9) = m ((c.tc : Thread nD τ).loc main_arg9) := by
  show StableHlo.after hostOps0 (W0 m ρ c) (Proc.devRef .tc main_arg9) = W0 m ρ c (Proc.devRef .tc main_arg9)
  after_results
theorem w1_arg10 : W1 m ρ c (Proc.devRef .tc main_arg10) = m ((c.tc : Thread nD τ).loc main_arg10) := by
  show StableHlo.after hostOps0 (W0 m ρ c) (Proc.devRef .tc main_arg10) = W0 m ρ c (Proc.devRef .tc main_arg10)
  after_results
theorem w1_arg11 : W1 m ρ c (Proc.devRef .tc main_arg11) = m ((c.tc : Thread nD τ).loc main_arg11) := by
  show StableHlo.after hostOps0 (W0 m ρ c) (Proc.devRef .tc main_arg11) = W0 m ρ c (Proc.devRef .tc main_arg11)
  after_results
theorem w1_arg12 : W1 m ρ c (Proc.devRef .tc main_arg12) = m ((c.tc : Thread nD τ).loc main_arg12) := by
  show StableHlo.after hostOps0 (W0 m ρ c) (Proc.devRef .tc main_arg12) = W0 m ρ c (Proc.devRef .tc main_arg12)
  after_results
theorem w1_v1 : W1 m ρ c (Proc.devRef .tc main_v1) = Cert.Net.srcRow (m ((c.tc : Thread nD τ).loc main_arg1)) := by
  show StableHlo.after hostOps0 (W0 m ρ c) (Proc.devRef .tc main_v1) = _
  after_results
  rfl
theorem w1_v3 : W1 m ρ c (Proc.devRef .tc main_v3) = Cert.Net.dstRow (m ((c.tc : Thread nD τ).loc main_arg1)) := by
  show StableHlo.after hostOps0 (W0 m ρ c) (Proc.devRef .tc main_v3) = _
  after_results
  rfl

/-! ## Boundary 2 -/

theorem w2_arg5 : W2 m ρ c (Proc.devRef .tc main_arg5) = m ((c.tc : Thread nD τ).loc main_arg5) :=
  (W2_of_ne m ρ c main_arg5 (by decide)).trans (w1_arg5 m ρ c)
theorem w2_arg6 : W2 m ρ c (Proc.devRef .tc main_arg6) = m ((c.tc : Thread nD τ).loc main_arg6) :=
  (W2_of_ne m ρ c main_arg6 (by decide)).trans (w1_arg6 m ρ c)
theorem w2_arg7 : W2 m ρ c (Proc.devRef .tc main_arg7) = m ((c.tc : Thread nD τ).loc main_arg7) :=
  (W2_of_ne m ρ c main_arg7 (by decide)).trans (w1_arg7 m ρ c)
theorem w2_arg8 : W2 m ρ c (Proc.devRef .tc main_arg8) = m ((c.tc : Thread nD τ).loc main_arg8) :=
  (W2_of_ne m ρ c main_arg8 (by decide)).trans (w1_arg8 m ρ c)
theorem w2_arg9 : W2 m ρ c (Proc.devRef .tc main_arg9) = m ((c.tc : Thread nD τ).loc main_arg9) :=
  (W2_of_ne m ρ c main_arg9 (by decide)).trans (w1_arg9 m ρ c)
theorem w2_arg10 : W2 m ρ c (Proc.devRef .tc main_arg10) = m ((c.tc : Thread nD τ).loc main_arg10) :=
  (W2_of_ne m ρ c main_arg10 (by decide)).trans (w1_arg10 m ρ c)
theorem w2_arg11 : W2 m ρ c (Proc.devRef .tc main_arg11) = m ((c.tc : Thread nD τ).loc main_arg11) :=
  (W2_of_ne m ρ c main_arg11 (by decide)).trans (w1_arg11 m ρ c)
theorem w2_arg12 : W2 m ρ c (Proc.devRef .tc main_arg12) = m ((c.tc : Thread nD τ).loc main_arg12) :=
  (W2_of_ne m ρ c main_arg12 (by decide)).trans (w1_arg12 m ρ c)
theorem w2_v1 : W2 m ρ c (Proc.devRef .tc main_v1) = Cert.Net.srcRow (m ((c.tc : Thread nD τ).loc main_arg1)) :=
  (W2_of_ne m ρ c main_v1 (by decide)).trans (w1_v1 m ρ c)
theorem w2_v3 : W2 m ρ c (Proc.devRef .tc main_v3) = Cert.Net.dstRow (m ((c.tc : Thread nD τ).loc main_arg1)) :=
  (W2_of_ne m ρ c main_v3 (by decide)).trans (w1_v3 m ρ c)

/-! ## Boundary 3 -/

theorem w3_arg5 : W3 m ρ c (Proc.devRef .tc main_arg5) = m ((c.tc : Thread nD τ).loc main_arg5) :=
  (show StableHlo.after hostOps1 (W2 m ρ c) (Proc.devRef .tc main_arg5) = W2 m ρ c (Proc.devRef .tc main_arg5) from by after_results).trans
    (w2_arg5 m ρ c)
theorem w3_arg6 : W3 m ρ c (Proc.devRef .tc main_arg6) = m ((c.tc : Thread nD τ).loc main_arg6) :=
  (show StableHlo.after hostOps1 (W2 m ρ c) (Proc.devRef .tc main_arg6) = W2 m ρ c (Proc.devRef .tc main_arg6) from by after_results).trans
    (w2_arg6 m ρ c)
theorem w3_arg8 : W3 m ρ c (Proc.devRef .tc main_arg8) = m ((c.tc : Thread nD τ).loc main_arg8) :=
  (show StableHlo.after hostOps1 (W2 m ρ c) (Proc.devRef .tc main_arg8) = W2 m ρ c (Proc.devRef .tc main_arg8) from by after_results).trans
    (w2_arg8 m ρ c)
theorem w3_arg9 : W3 m ρ c (Proc.devRef .tc main_arg9) = m ((c.tc : Thread nD τ).loc main_arg9) :=
  (show StableHlo.after hostOps1 (W2 m ρ c) (Proc.devRef .tc main_arg9) = W2 m ρ c (Proc.devRef .tc main_arg9) from by after_results).trans
    (w2_arg9 m ρ c)
theorem w3_arg10 : W3 m ρ c (Proc.devRef .tc main_arg10) = m ((c.tc : Thread nD τ).loc main_arg10) :=
  (show StableHlo.after hostOps1 (W2 m ρ c) (Proc.devRef .tc main_arg10) = W2 m ρ c (Proc.devRef .tc main_arg10) from by after_results).trans
    (w2_arg10 m ρ c)
theorem w3_arg11 : W3 m ρ c (Proc.devRef .tc main_arg11) = m ((c.tc : Thread nD τ).loc main_arg11) :=
  (show StableHlo.after hostOps1 (W2 m ρ c) (Proc.devRef .tc main_arg11) = W2 m ρ c (Proc.devRef .tc main_arg11) from by after_results).trans
    (w2_arg11 m ρ c)
theorem w3_arg12 : W3 m ρ c (Proc.devRef .tc main_arg12) = m ((c.tc : Thread nD τ).loc main_arg12) :=
  (show StableHlo.after hostOps1 (W2 m ρ c) (Proc.devRef .tc main_arg12) = W2 m ρ c (Proc.devRef .tc main_arg12) from by after_results).trans
    (w2_arg12 m ρ c)
theorem w3_v1 : W3 m ρ c (Proc.devRef .tc main_v1) = Cert.Net.srcRow (m ((c.tc : Thread nD τ).loc main_arg1)) :=
  (show StableHlo.after hostOps1 (W2 m ρ c) (Proc.devRef .tc main_v1) = W2 m ρ c (Proc.devRef .tc main_v1) from by after_results).trans
    (w2_v1 m ρ c)
theorem w3_v3 : W3 m ρ c (Proc.devRef .tc main_v3) = Cert.Net.dstRow (m ((c.tc : Thread nD τ).loc main_arg1)) :=
  (show StableHlo.after hostOps1 (W2 m ρ c) (Proc.devRef .tc main_v3) = W2 m ρ c (Proc.devRef .tc main_v3) from by after_results).trans
    (w2_v3 m ρ c)

/-! ## Boundary 4 -/

theorem w4_arg8 : W4 m ρ c (Proc.devRef .tc main_arg8) = m ((c.tc : Thread nD τ).loc main_arg8) :=
  (W4_of_ne m ρ c main_arg8 (by decide)).trans (w3_arg8 m ρ c)
theorem w4_arg9 : W4 m ρ c (Proc.devRef .tc main_arg9) = m ((c.tc : Thread nD τ).loc main_arg9) :=
  (W4_of_ne m ρ c main_arg9 (by decide)).trans (w3_arg9 m ρ c)
theorem w4_arg10 : W4 m ρ c (Proc.devRef .tc main_arg10) = m ((c.tc : Thread nD τ).loc main_arg10) :=
  (W4_of_ne m ρ c main_arg10 (by decide)).trans (w3_arg10 m ρ c)
theorem w4_arg11 : W4 m ρ c (Proc.devRef .tc main_arg11) = m ((c.tc : Thread nD τ).loc main_arg11) :=
  (W4_of_ne m ρ c main_arg11 (by decide)).trans (w3_arg11 m ρ c)
theorem w4_arg12 : W4 m ρ c (Proc.devRef .tc main_arg12) = m ((c.tc : Thread nD τ).loc main_arg12) :=
  (W4_of_ne m ρ c main_arg12 (by decide)).trans (w3_arg12 m ρ c)
theorem w4_v1 : W4 m ρ c (Proc.devRef .tc main_v1) = Cert.Net.srcRow (m ((c.tc : Thread nD τ).loc main_arg1)) :=
  (W4_of_ne m ρ c main_v1 (by decide)).trans (w3_v1 m ρ c)
theorem w4_v3 : W4 m ρ c (Proc.devRef .tc main_v3) = Cert.Net.dstRow (m ((c.tc : Thread nD τ).loc main_arg1)) :=
  (W4_of_ne m ρ c main_v3 (by decide)).trans (w3_v3 m ρ c)

/-! ## Boundary 5 -/

theorem w5_arg8 : W5 m ρ c (Proc.devRef .tc main_arg8) = m ((c.tc : Thread nD τ).loc main_arg8) :=
  (show StableHlo.after hostOps2 (W4 m ρ c) (Proc.devRef .tc main_arg8) = W4 m ρ c (Proc.devRef .tc main_arg8) from by after_results).trans
    (w4_arg8 m ρ c)
theorem w5_arg9 : W5 m ρ c (Proc.devRef .tc main_arg9) = m ((c.tc : Thread nD τ).loc main_arg9) :=
  (show StableHlo.after hostOps2 (W4 m ρ c) (Proc.devRef .tc main_arg9) = W4 m ρ c (Proc.devRef .tc main_arg9) from by after_results).trans
    (w4_arg9 m ρ c)
theorem w5_arg11 : W5 m ρ c (Proc.devRef .tc main_arg11) = m ((c.tc : Thread nD τ).loc main_arg11) :=
  (show StableHlo.after hostOps2 (W4 m ρ c) (Proc.devRef .tc main_arg11) = W4 m ρ c (Proc.devRef .tc main_arg11) from by after_results).trans
    (w4_arg11 m ρ c)
theorem w5_arg12 : W5 m ρ c (Proc.devRef .tc main_arg12) = m ((c.tc : Thread nD τ).loc main_arg12) :=
  (show StableHlo.after hostOps2 (W4 m ρ c) (Proc.devRef .tc main_arg12) = W4 m ρ c (Proc.devRef .tc main_arg12) from by after_results).trans
    (w4_arg12 m ρ c)

/-! ## Boundary 6 -/

theorem w6_arg11 : W6 m ρ c (Proc.devRef .tc main_arg11) = m ((c.tc : Thread nD τ).loc main_arg11) :=
  (W6_of_ne m ρ c main_arg11 (by decide)).trans (w5_arg11 m ρ c)
theorem w6_arg12 : W6 m ρ c (Proc.devRef .tc main_arg12) = m ((c.tc : Thread nD τ).loc main_arg12) :=
  (W6_of_ne m ρ c main_arg12 (by decide)).trans (w5_arg12 m ρ c)

/-! ## Boundary 7 -/

theorem w7_arg11 : W7 m ρ c (Proc.devRef .tc main_arg11) = m ((c.tc : Thread nD τ).loc main_arg11) :=
  (show StableHlo.after hostOps3 (W6 m ρ c) (Proc.devRef .tc main_arg11) = W6 m ρ c (Proc.devRef .tc main_arg11) from by after_results).trans
    (w6_arg11 m ρ c)

end Cert.KernelIdeal.Carry

end
-- ==== Proof.Layer0.lean ====
/-
  Region 0 of the idealized kernel (layer 1 of the network), as one whole-array function.

  The region tiles the 100000 node rows into 20 blocks of 5000. At grid point t its body loads rows
  [5000 t, 5000 t + 5000) of the node features x and of the aggregated neighbour features a, the whole 64×64 root
  and neighbour weights and the whole 1×64 bias row, and stores  x_blk · wr + a_blk · wn + bias  into the same rows of
  the output (the changes of float format are the identity on the extended reals, and each product starts from a
  zero accumulator). An entry of the layer depends on one row of x and of a only, so the block written at t is the
  block at t of the layer of the WHOLE arrays; the 20 blocks cover every row (row r is in block r / 5000), hence the
  output array after the region is the convolution layer of the arrays the region found — whatever those are
  (`V` below is any contents of the core's buffers at the region's entry).
-/
import proofs.«118440_j65395172049088_1_alg».proof.Proof.Gen.KernelIdeal.Frame
import proofs.«118440_j65395172049088_1_alg».proof.Proof.LibGraphConv
import Idealize.ShloMosaic.Lib.Pipeline.Value
import Idealize.ShloMosaic.Lib.ValueIdx

set_option maxRecDepth 16384

noncomputable section

open scoped BigOperators

namespace Cert.KernelIdeal.Layer0

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-buffer access. -/
theorem zero2 : (![0, 0] : Fin 2 → Nat) = fun _ => 0 := funext fun a => by fin_cases a <;> rfl

/-- The body's products contract the left operand's second axis against the right operand's first. -/
theorem plain64 : Cert.PlainDot.IsPlain dot_S5000x64_S64x64_S5000x64_1_0_0_1_n_n := ⟨rfl, rfl, rfl, rfl, rfl, rfl⟩

/-- What the body stores, as a function of the blocks it loads: the convolution layer of the blocks. -/
theorem payload (x0 x1 : Vec Ideal S5000x64 .f32) (x2 x3 : Vec Ideal S64x64 .f32) (x4 : Vec Ideal S1x64 .f32) :
    k0_pay1 (F := Ideal) x0 x1 x2 x3 x4 = conv x0 x1 x2 x3 x4 := by
  unfold k0_pay1
  simp only [shapeCast_self]
  exact conv_unit plain64 none _ _ _ _ _ _

/-- The printed index maps, decided over the grid: the feature and output windows sit at block row t, the weights
    and the bias row at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of the layer of the whole arrays. -/
theorem flushed (c : Dev nD) (t : Fin cfg0.N) :
    (dat0 V c).flushed 5 t = ((cfg0.win 5).blk t).view.read (Elt Ideal)
      (conv (V c main_arg0) (V c main_v13) (V c main_arg2) (V c main_arg3) (V c main_v14)) := by
  show (cfg0.win 5).cut (grid0.coords t) ((dat0 V c).after 5 t) = _
  rw [after0_5]
  unfold out0_5
  rw [View.canon_unit_zero zero2]
  simp only [View.ld_unit_zero (S := S5000x64) zero2, View.ld_unit_zero (S := S64x64) zero2, View.ld_unit_zero (S := S1x64) zero2]
  rw [payload]
  obtain ⟨f00, f01, f10, f11, f20, f21, f30, f31, f40, f41, f50, f51⟩ := idx_facts t
  have e2 : iblk0 V c 2 t = V c main_arg2 := by
    funext y
    show V c main_arg2 (((cfg0.win 2).blk t).view.emb y) = V c main_arg2 y
    refine congrArg _ (funext fun a => Fin.ext ?_)
    match a with
    | ⟨0, _⟩ => show win0_2.index t (0 : Fin 2) * 64 + 1 * (y 0).val = (y 0).val; omega
    | ⟨1, _⟩ => show win0_2.index t (1 : Fin 2) * 64 + 1 * (y 1).val = (y 1).val; omega
  have e3 : iblk0 V c 3 t = V c main_arg3 := by
    funext y
    show V c main_arg3 (((cfg0.win 3).blk t).view.emb y) = V c main_arg3 y
    refine congrArg _ (funext fun a => Fin.ext ?_)
    match a with
    | ⟨0, _⟩ => show win0_3.index t (0 : Fin 2) * 64 + 1 * (y 0).val = (y 0).val; omega
    | ⟨1, _⟩ => show win0_3.index t (1 : Fin 2) * 64 + 1 * (y 1).val = (y 1).val; omega
  have e4 : iblk0 V c 4 t = V c main_v14 := by
    funext y
    show V c main_v14 (((cfg0.win 4).blk t).view.emb y) = V c main_v14 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 64 + 1 * (y 1).val = (y 1).val; omega
  rw [e2, e3, e4]
  funext j
  show conv (iblk0 V c 0 t) (iblk0 V c 1 t) (V c main_arg2) (V c main_arg3) (V c main_v14) j
    = conv (V c main_arg0) (V c main_v13) (V c main_arg2) (V c main_arg3) (V c main_v14) (((cfg0.win 5).blk t).view.emb j)
  refine conv_at (M := 5000) (M' := 100000) (K := 64) (N := 64) _ _ _ _ _ _ _ j _ ?_ ?_ ?_
  · apply Fin.ext
    show (j 1).val = win0_5.index t (1 : Fin 2) * 64 + 1 * (j 1).val
    omega
  · intro q
    show V c main_arg0 (((cfg0.win 0).blk t).view.emb (ix2 (j 0) q)) = V c main_arg0 (ix2 ((((cfg0.win 5).blk t).view.emb j) 0) q)
    refine congrArg _ (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 64 + 1 * q.val = q.val; omega
  · intro q
    show V c main_v13 (((cfg0.win 1).blk t).view.emb (ix2 (j 0) q)) = V c main_v13 (ix2 ((((cfg0.win 5).blk t).view.emb j) 0) q)
    refine congrArg _ (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 64 + 1 * q.val = q.val; omega

/-- An index of the array is in point `t`'s block iff each coordinate is in the block's range on its axis. -/
theorem mem_blk (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v15).slice (win0_5.rect t)).set ↔ _
  rw [View.set_slice_whole, Rect.mem_set_unit]
  exact Iff.rfl

/-- Row `r` of the array lies in the block of point `r / 5000`. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  let t : Fin cfg0.N := ⟨(i 0).val / 5000, by omega⟩
  refine ⟨t, flush0_5 t, ?_⟩
  rw [mem_blk]
  obtain ⟨-, -, -, -, -, -, -, -, -, -, f50, f51⟩ := idx_facts t
  have ht : t.val = (i 0).val / 5000 := rfl
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-- The layer's output array after the region: the convolution layer of the arrays the region found. -/
theorem final (c : Dev nD) :
    (dat0 V c).arrAt 5 cfg0.N = conv (V c main_arg0) (V c main_v13) (V c main_arg2) (V c main_arg3) (V c main_v14) :=
  (dat0 V c).arrAt_eq_of_cover 5 _ (fun t _ => flushed V c t) cover

end Cert.KernelIdeal.Layer0

end
-- ==== Proof.Layer1.lean ====
/-
  Region 1 of the idealized kernel (layer 2 of the network), as one whole-array function.

  The region tiles the 100000 node rows into 20 blocks of 5000. At grid point t its body loads rows
  [5000 t, 5000 t + 5000) of the node features x and of the aggregated neighbour features a, the whole 64×64 root
  and neighbour weights and the whole 1×64 bias row, and stores  x_blk · wr + a_blk · wn + bias  into the same rows of
  the output (the changes of float format are the identity on the extended reals, and each product starts from a
  zero accumulator). An entry of the layer depends on one row of x and of a only, so the block written at t is the
  block at t of the layer of the WHOLE arrays; the 20 blocks cover every row (row r is in block r / 5000), hence the
  output array after the region is the convolution layer of the arrays the region found — whatever those are
  (`V` below is any contents of the core's buffers at the region's entry).
-/
import proofs.«118440_j65395172049088_1_alg».proof.Proof.Gen.KernelIdeal.Frame
import proofs.«118440_j65395172049088_1_alg».proof.Proof.LibGraphConv
import Idealize.ShloMosaic.Lib.Pipeline.Value
import Idealize.ShloMosaic.Lib.ValueIdx

set_option maxRecDepth 16384

noncomputable section

open scoped BigOperators

namespace Cert.KernelIdeal.Layer1

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-buffer access. -/
theorem zero2 : (![0, 0] : Fin 2 → Nat) = fun _ => 0 := funext fun a => by fin_cases a <;> rfl

/-- The body's products contract the left operand's second axis against the right operand's first. -/
theorem plain64 : Cert.PlainDot.IsPlain dot_S5000x64_S64x64_S5000x64_1_0_0_1_n_n := ⟨rfl, rfl, rfl, rfl, rfl, rfl⟩

/-- What the body stores, as a function of the blocks it loads: the convolution layer of the blocks. -/
theorem payload (x0 x1 : Vec Ideal S5000x64 .f32) (x2 x3 : Vec Ideal S64x64 .f32) (x4 : Vec Ideal S1x64 .f32) :
    k1_pay1 (F := Ideal) x0 x1 x2 x3 x4 = conv x0 x1 x2 x3 x4 := by
  unfold k1_pay1
  simp only [shapeCast_self]
  exact conv_unit plain64 none _ _ _ _ _ _

/-- The printed index maps, decided over the grid: the feature and output windows sit at block row t, the weights
    and the bias row at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the layer of the whole arrays. -/
theorem flushed (c : Dev nD) (t : Fin cfg1.N) :
    (dat1 V c).flushed 5 t = ((cfg1.win 5).blk t).view.read (Elt Ideal)
      (conv (V c main_v15) (V c main_v25) (V c main_arg5) (V c main_arg6) (V c main_v26)) := by
  show (cfg1.win 5).cut (grid1.coords t) ((dat1 V c).after 5 t) = _
  rw [after1_5]
  unfold out1_5
  rw [View.canon_unit_zero zero2]
  simp only [View.ld_unit_zero (S := S5000x64) zero2, View.ld_unit_zero (S := S64x64) zero2, View.ld_unit_zero (S := S1x64) zero2]
  rw [payload]
  obtain ⟨f00, f01, f10, f11, f20, f21, f30, f31, f40, f41, f50, f51⟩ := idx_facts t
  have e2 : iblk1 V c 2 t = V c main_arg5 := by
    funext y
    show V c main_arg5 (((cfg1.win 2).blk t).view.emb y) = V c main_arg5 y
    refine congrArg _ (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  have e3 : iblk1 V c 3 t = V c main_arg6 := by
    funext y
    show V c main_arg6 (((cfg1.win 3).blk t).view.emb y) = V c main_arg6 y
    refine congrArg _ (funext fun a => Fin.ext ?_)
    match a with
    | ⟨0, _⟩ => show win1_3.index t (0 : Fin 2) * 64 + 1 * (y 0).val = (y 0).val; omega
    | ⟨1, _⟩ => show win1_3.index t (1 : Fin 2) * 64 + 1 * (y 1).val = (y 1).val; omega
  have e4 : iblk1 V c 4 t = V c main_v26 := by
    funext y
    show V c main_v26 (((cfg1.win 4).blk t).view.emb y) = V c main_v26 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 64 + 1 * (y 1).val = (y 1).val; omega
  rw [e2, e3, e4]
  funext j
  show conv (iblk1 V c 0 t) (iblk1 V c 1 t) (V c main_arg5) (V c main_arg6) (V c main_v26) j
    = conv (V c main_v15) (V c main_v25) (V c main_arg5) (V c main_arg6) (V c main_v26) (((cfg1.win 5).blk t).view.emb j)
  refine conv_at (M := 5000) (M' := 100000) (K := 64) (N := 64) _ _ _ _ _ _ _ j _ ?_ ?_ ?_
  · apply Fin.ext
    show (j 1).val = win1_5.index t (1 : Fin 2) * 64 + 1 * (j 1).val
    omega
  · intro q
    show V c main_v15 (((cfg1.win 0).blk t).view.emb (ix2 (j 0) q)) = V c main_v15 (ix2 ((((cfg1.win 5).blk t).view.emb j) 0) q)
    refine congrArg _ (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 64 + 1 * q.val = q.val; omega
  · intro q
    show V c main_v25 (((cfg1.win 1).blk t).view.emb (ix2 (j 0) q)) = V c main_v25 (ix2 ((((cfg1.win 5).blk t).view.emb j) 0) q)
    refine congrArg _ (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 64 + 1 * q.val = q.val; omega

/-- An index of the array is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v27).slice (win1_5.rect t)).set ↔ _
  rw [View.set_slice_whole, Rect.mem_set_unit]
  exact Iff.rfl

/-- Row `r` of the array lies in the block of point `r / 5000`. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  let t : Fin cfg1.N := ⟨(i 0).val / 5000, by omega⟩
  refine ⟨t, flush1_5 t, ?_⟩
  rw [mem_blk]
  obtain ⟨-, -, -, -, -, -, -, -, -, -, f50, f51⟩ := idx_facts t
  have ht : t.val = (i 0).val / 5000 := rfl
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

/-- The layer's output array after the region: the convolution layer of the arrays the region found. -/
theorem final (c : Dev nD) :
    (dat1 V c).arrAt 5 cfg1.N = conv (V c main_v15) (V c main_v25) (V c main_arg5) (V c main_arg6) (V c main_v26) :=
  (dat1 V c).arrAt_eq_of_cover 5 _ (fun t _ => flushed V c t) cover

end Cert.KernelIdeal.Layer1

end
-- ==== Proof.Layer2.lean ====
/-
  Region 2 of the idealized kernel (layer 3 of the network), as one whole-array function.

  The region tiles the 100000 node rows into 20 blocks of 5000. At grid point t its body loads rows
  [5000 t, 5000 t + 5000) of the node features x and of the aggregated neighbour features a, the whole 64×64 root
  and neighbour weights and the whole 1×64 bias row, and stores  x_blk · wr + a_blk · wn + bias  into the same rows of
  the output (the changes of float format are the identity on the extended reals, and each product starts from a
  zero accumulator). An entry of the layer depends on one row of x and of a only, so the block written at t is the
  block at t of the layer of the WHOLE arrays; the 20 blocks cover every row (row r is in block r / 5000), hence the
  output array after the region is the convolution layer of the arrays the region found — whatever those are
  (`V` below is any contents of the core's buffers at the region's entry).
-/
import proofs.«118440_j65395172049088_1_alg».proof.Proof.Gen.KernelIdeal.Frame
import proofs.«118440_j65395172049088_1_alg».proof.Proof.LibGraphConv
import Idealize.ShloMosaic.Lib.Pipeline.Value
import Idealize.ShloMosaic.Lib.ValueIdx

set_option maxRecDepth 16384

noncomputable section

open scoped BigOperators

namespace Cert.KernelIdeal.Layer2

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-buffer access. -/
theorem zero2 : (![0, 0] : Fin 2 → Nat) = fun _ => 0 := funext fun a => by fin_cases a <;> rfl

/-- The body's products contract the left operand's second axis against the right operand's first. -/
theorem plain64 : Cert.PlainDot.IsPlain dot_S5000x64_S64x64_S5000x64_1_0_0_1_n_n := ⟨rfl, rfl, rfl, rfl, rfl, rfl⟩

/-- What the body stores, as a function of the blocks it loads: the convolution layer of the blocks. -/
theorem payload (x0 x1 : Vec Ideal S5000x64 .f32) (x2 x3 : Vec Ideal S64x64 .f32) (x4 : Vec Ideal S1x64 .f32) :
    k2_pay1 (F := Ideal) x0 x1 x2 x3 x4 = conv x0 x1 x2 x3 x4 := by
  unfold k2_pay1
  simp only [shapeCast_self]
  exact conv_unit plain64 none _ _ _ _ _ _

/-- The printed index maps, decided over the grid: the feature and output windows sit at block row t, the weights
    and the bias row at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is block t of the layer of the whole arrays. -/
theorem flushed (c : Dev nD) (t : Fin cfg2.N) :
    (dat2 V c).flushed 5 t = ((cfg2.win 5).blk t).view.read (Elt Ideal)
      (conv (V c main_v27) (V c main_v37) (V c main_arg8) (V c main_arg9) (V c main_v38)) := by
  show (cfg2.win 5).cut (grid2.coords t) ((dat2 V c).after 5 t) = _
  rw [after2_5]
  unfold out2_5
  rw [View.canon_unit_zero zero2]
  simp only [View.ld_unit_zero (S := S5000x64) zero2, View.ld_unit_zero (S := S64x64) zero2, View.ld_unit_zero (S := S1x64) zero2]
  rw [payload]
  obtain ⟨f00, f01, f10, f11, f20, f21, f30, f31, f40, f41, f50, f51⟩ := idx_facts t
  have e2 : iblk2 V c 2 t = V c main_arg8 := by
    funext y
    show V c main_arg8 (((cfg2.win 2).blk t).view.emb y) = V c main_arg8 y
    refine congrArg _ (funext fun a => Fin.ext ?_)
    match a with
    | ⟨0, _⟩ => show win2_2.index t (0 : Fin 2) * 64 + 1 * (y 0).val = (y 0).val; omega
    | ⟨1, _⟩ => show win2_2.index t (1 : Fin 2) * 64 + 1 * (y 1).val = (y 1).val; omega
  have e3 : iblk2 V c 3 t = V c main_arg9 := by
    funext y
    show V c main_arg9 (((cfg2.win 3).blk t).view.emb y) = V c main_arg9 y
    refine congrArg _ (funext fun a => Fin.ext ?_)
    match a with
    | ⟨0, _⟩ => show win2_3.index t (0 : Fin 2) * 64 + 1 * (y 0).val = (y 0).val; omega
    | ⟨1, _⟩ => show win2_3.index t (1 : Fin 2) * 64 + 1 * (y 1).val = (y 1).val; omega
  have e4 : iblk2 V c 4 t = V c main_v38 := by
    funext y
    show V c main_v38 (((cfg2.win 4).blk t).view.emb y) = V c main_v38 y
    refine congrArg _ (funext fun a => Fin.ext ?_)
    match a with
    | ⟨0, _⟩ => show win2_4.index t (0 : Fin 2) * 1 + 1 * (y 0).val = (y 0).val; omega
    | ⟨1, _⟩ => show win2_4.index t (1 : Fin 2) * 64 + 1 * (y 1).val = (y 1).val; omega
  rw [e2, e3, e4]
  funext j
  show conv (iblk2 V c 0 t) (iblk2 V c 1 t) (V c main_arg8) (V c main_arg9) (V c main_v38) j
    = conv (V c main_v27) (V c main_v37) (V c main_arg8) (V c main_arg9) (V c main_v38) (((cfg2.win 5).blk t).view.emb j)
  refine conv_at (M := 5000) (M' := 100000) (K := 64) (N := 64) _ _ _ _ _ _ _ j _ ?_ ?_ ?_
  · apply Fin.ext
    show (j 1).val = win2_5.index t (1 : Fin 2) * 64 + 1 * (j 1).val
    omega
  · intro q
    show V c main_v27 (((cfg2.win 0).blk t).view.emb (ix2 (j 0) q)) = V c main_v27 (ix2 ((((cfg2.win 5).blk t).view.emb j) 0) q)
    refine congrArg _ (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 64 + 1 * q.val = q.val; omega
  · intro q
    show V c main_v37 (((cfg2.win 1).blk t).view.emb (ix2 (j 0) q)) = V c main_v37 (ix2 ((((cfg2.win 5).blk t).view.emb j) 0) q)
    refine congrArg _ (funext fun a => Fin.ext ?_)
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 64 + 1 * q.val = q.val; omega

/-- An index of the array is in point `t`'s block iff each coordinate is in the block's range on its axis. -/
theorem mem_blk (t : Fin cfg2.N) (i : S100000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v39).slice (win2_5.rect t)).set ↔ _
  rw [View.set_slice_whole, Rect.mem_set_unit]
  exact Iff.rfl

/-- Row `r` of the array lies in the block of point `r / 5000`. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  let t : Fin cfg2.N := ⟨(i 0).val / 5000, by omega⟩
  refine ⟨t, flush2_5 t, ?_⟩
  rw [mem_blk]
  obtain ⟨-, -, -, -, -, -, -, -, -, -, f50, f51⟩ := idx_facts t
  have ht : t.val = (i 0).val / 5000 := rfl
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 64 ≤ (i 1).val ∧ (i 1).val < win2_5.index t (1 : Fin 2) * 64 + 64
    omega

/-- The layer's output array after the region: the convolution layer of the arrays the region found. -/
theorem final (c : Dev nD) :
    (dat2 V c).arrAt 5 cfg2.N = conv (V c main_v27) (V c main_v37) (V c main_arg8) (V c main_arg9) (V c main_v38) :=
  (dat2 V c).arrAt_eq_of_cover 5 _ (fun t _ => flushed V c t) cover

end Cert.KernelIdeal.Layer2

end
-- ==== Proof.Head.lean ====
/-
  Region 3 of the idealized kernel (the output head), as one whole-array function.

  The region tiles the 100000 node rows into 20 blocks of 5000. At grid point t its body loads rows
  [5000 t, 5000 t + 5000) of the node features x, the whole 64×1 weight and the whole 1×1 bias, and stores
  min(4, max(-4, x_blk · w + bias))  into the same rows of the 100000×1 output (the two bounds are the float words of
  -4.0 and 4.0, never evaluated; the changes of float format are the identity on the extended reals; the product
  starts from a zero accumulator). An entry depends on one row of x only, so the block written at t is the block at t
  of the head of the WHOLE arrays; the 20 blocks cover every row, hence the output array after the region is the head
  of the arrays the region found (`V` below is any contents of the core's buffers at the region's entry).
-/
import proofs.«118440_j65395172049088_1_alg».proof.Proof.Gen.KernelIdeal.Frame
import proofs.«118440_j65395172049088_1_alg».proof.Proof.LibGraphConv
import Idealize.ShloMosaic.Lib.Pipeline.Value
import Idealize.ShloMosaic.Lib.ValueIdx

set_option maxRecDepth 16384

noncomputable section

open scoped BigOperators

namespace Cert.KernelIdeal.Head

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The lower and the upper bound: the float words of -4.0 and 4.0 read on the extended reals. -/
abbrev lo : EReal := Ideal.ofBits .f32 0xC0800000#32
abbrev hi : EReal := Ideal.ofBits .f32 0x40800000#32

/-- The zero offsets of a whole-buffer access. -/
theorem zero2 : (![0, 0] : Fin 2 → Nat) = fun _ => 0 := funext fun a => by fin_cases a <;> rfl

/-- The body's product contracts the left operand's second axis against the right operand's first. -/
theorem plain1 : Cert.PlainDot.IsPlain dot_S5000x64_S64x1_S5000x1_1_0_0_1_n_n := ⟨rfl, rfl, rfl, rfl, rfl, rfl⟩

/-- What the body stores, as a function of the blocks it loads: the head of the blocks. -/
theorem payload (x0 : Vec Ideal S5000x64 .f32) (x1 : Vec Ideal S64x1 .f32) (x2 : Vec Ideal S1x1 .f32) :
    k3_pay1 (F := Ideal) x0 x1 x2 = head lo hi x0 x1 x2 := by
  unfold k3_pay1
  simp only [shapeCast_self]
  exact head_unit plain1 none 0xC0800000#32 0x40800000#32 _ _ _ _

/-- The printed index maps, decided over the grid: the feature and output windows sit at block row t, the weight
    and the bias at block 0. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the head of the whole arrays. -/
theorem flushed (c : Dev nD) (t : Fin cfg3.N) :
    (dat3 V c).flushed 3 t = ((cfg3.win 3).blk t).view.read (Elt Ideal)
      (head lo hi (V c main_v39) (V c main_arg11) (V c main_v40)) := by
  show (cfg3.win 3).cut (grid3.coords t) ((dat3 V c).after 3 t) = _
  rw [after3_3]
  unfold out3_3
  rw [View.canon_unit_zero zero2]
  simp only [View.ld_unit_zero (S := S5000x64) zero2, View.ld_unit_zero (S := S64x1) zero2, View.ld_unit_zero (S := S1x1) zero2]
  rw [payload]
  obtain ⟨f00, f01, f10, f11, f20, f21, f30, f31⟩ := idx_facts t
  have e1 : iblk3 V c 1 t = V c main_arg11 := by
    funext y
    show V c main_arg11 (((cfg3.win 1).blk t).view.emb y) = V c main_arg11 y
    refine congrArg _ (funext fun a => Fin.ext ?_)
    match a with
    | ⟨0, _⟩ => show win3_1.index t (0 : Fin 2) * 64 + 1 * (y 0).val = (y 0).val; omega
    | ⟨1, _⟩ => show win3_1.index t (1 : Fin 2) * 1 + 1 * (y 1).val = (y 1).val; omega
  have e2 : iblk3 V c 2 t = V c main_v40 := by
    funext y
    show V c main_v40 (((cfg3.win 2).blk t).view.emb y) = V c main_v40 y
    refine congrArg _ (funext fun a => Fin.ext ?_)
    match a with
    | ⟨0, _⟩ => show win3_2.index t (0 : Fin 2) * 1 + 1 * (y 0).val = (y 0).val; omega
    | ⟨1, _⟩ => show win3_2.index t (1 : Fin 2) * 1 + 1 * (y 1).val = (y 1).val; omega
  rw [e1, e2]
  funext j
  show head lo hi (iblk3 V c 0 t) (V c main_arg11) (V c main_v40) j
    = head lo hi (V c main_v39) (V c main_arg11) (V c main_v40) (((cfg3.win 3).blk t).view.emb j)
  refine head_at (M := 5000) (M' := 100000) (K := 64) (N := 1) _ _ _ _ _ _ j _ ?_ ?_
  · apply Fin.ext
    show (j 1).val = win3_3.index t (1 : Fin 2) * 1 + 1 * (j 1).val
    omega
  · intro q
    show V c main_v39 (((cfg3.win 0).blk t).view.emb (ix2 (j 0) q)) = V c main_v39 (ix2 ((((cfg3.win 3).blk t).view.emb j) 0) q)
    refine congrArg _ (funext fun a => Fin.ext ?_)
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 64 + 1 * q.val = q.val; omega

/-- An index of the array is in point `t`'s block iff each coordinate is in the block's range on its axis. -/
theorem mem_blk (t : Fin cfg3.N) (i : S100000x1.Idx) :
    i ∈ ((cfg3.win 3).blk t).view.set ↔ ∀ a : Fin 2, win3_3.index t a * S5000x1.size a ≤ (i a).val
      ∧ (i a).val < win3_3.index t a * S5000x1.size a + S5000x1.size a := by
  show i ∈ ((View.whole main_v41).slice (win3_3.rect t)).set ↔ _
  rw [View.set_slice_whole, Rect.mem_set_unit]
  exact Iff.rfl

/-- Row `r` of the array lies in the block of point `r / 5000`. -/
theorem cover (i : S100000x1.Idx) :
    ∃ t : Fin cfg3.N, (cfg3.win 3).flush t = true ∧ i ∈ ((cfg3.win 3).blk t).view.set := by
  have hi0 : (i 0).val < 100000 := (i 0).isLt
  have hi1 : (i 1).val < 1 := (i 1).isLt
  have hN : cfg3.N = 20 := N_3
  let t : Fin cfg3.N := ⟨(i 0).val / 5000, by omega⟩
  refine ⟨t, flush3_3 t, ?_⟩
  rw [mem_blk]
  obtain ⟨-, -, -, -, -, -, f30, f31⟩ := idx_facts t
  have ht : t.val = (i 0).val / 5000 := rfl
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 1 ≤ (i 1).val ∧ (i 1).val < win3_3.index t (1 : Fin 2) * 1 + 1
    omega

/-- The output array after the region: the head of the arrays the region found. -/
theorem final (c : Dev nD) :
    (dat3 V c).arrAt 3 cfg3.N = head lo hi (V c main_v39) (V c main_arg11) (V c main_v40) :=
  (dat3 V c).arrAt_eq_of_cover 3 _ (fun t _ => flushed V c t) cover

end Cert.KernelIdeal.Head

end
-- ==== Proof.KernelValue.lean ====
/-
  What the result buffer holds after the idealized kernel's run: the network of the launch arrays.

  Boundary by boundary through @main (the fold of the run's post): the first host stretch leaves the two edge rows,
  the first aggregate of the input features and the first bias as a 1×64 row; region 0 then leaves layer 1's features
  `h1` in its output array (the region as one whole-array function, at the contents the stretch left); the next
  stretch aggregates `h1` over the same edge rows and lays out the second bias, region 1 leaves `h2`; likewise `h3`;
  the last stretch lays out the head's bias as a 1×1 row and region 3 leaves the clamped head of `h3` — which is `net`
  of the thirteen launch arrays. A bias reshaped to a 1×C row is the row the layer's formula names.
-/
import proofs.«118440_j65395172049088_1_alg».proof.Proof.Gen.KernelIdeal.Frame
import proofs.«118440_j65395172049088_1_alg».proof.Proof.Network
import proofs.«118440_j65395172049088_1_alg».proof.Proof.Carry
import proofs.«118440_j65395172049088_1_alg».proof.Proof.Layer0
import proofs.«118440_j65395172049088_1_alg».proof.Proof.Layer1
import proofs.«118440_j65395172049088_1_alg».proof.Proof.Layer2
import proofs.«118440_j65395172049088_1_alg».proof.Proof.Head
import Idealize.ShloMosaic.Lib.StableHlo.Run

set_option maxRecDepth 16384

noncomputable section

namespace Cert.KernelIdeal.Result

open Cert.KernelIdeal Cert.KernelIdeal.Gen Cert.KernelIdeal.Carry Cert.Net Cert.GraphConv
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The features after layers 1, 2 and 3, as functions of the launch arrays. -/
def h1 : Feat := layer (srcRow (m ((c.tc : Thread nD τ).loc main_arg1))) (dstRow (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4))
def h2 : Feat := layer (srcRow (m ((c.tc : Thread nD τ).loc main_arg1))) (dstRow (m ((c.tc : Thread nD τ).loc main_arg1))) (h1 m c) (m ((c.tc : Thread nD τ).loc main_arg5)) (m ((c.tc : Thread nD τ).loc main_arg6)) (m ((c.tc : Thread nD τ).loc main_arg7))
def h3 : Feat := layer (srcRow (m ((c.tc : Thread nD τ).loc main_arg1))) (dstRow (m ((c.tc : Thread nD τ).loc main_arg1))) (h2 m c) (m ((c.tc : Thread nD τ).loc main_arg8)) (m ((c.tc : Thread nD τ).loc main_arg9)) (m ((c.tc : Thread nD τ).loc main_arg10))

/-! ## Layer 1 -/

theorem w1_v13 : W1 m ρ c (Proc.devRef .tc main_v13) = aggregate (m ((c.tc : Thread nD τ).loc main_arg0)) (srcRow (m ((c.tc : Thread nD τ).loc main_arg1))) (dstRow (m ((c.tc : Thread nD τ).loc main_arg1))) := by
  show StableHlo.after hostOps0 (W0 m ρ c) (Proc.devRef .tc main_v13) = _
  after_results
  rfl

theorem w1_v14 : W1 m ρ c (Proc.devRef .tc main_v14) = shapeCast S1x64 (m ((c.tc : Thread nD τ).loc main_arg4)) Facts₀.shapeCasts_S64_S1x64 := by
  show StableHlo.after hostOps0 (W0 m ρ c) (Proc.devRef .tc main_v14) = _
  after_results
  rfl

theorem w2_v15 : W2 m ρ c (Proc.devRef .tc main_v15) = h1 m c := by
  refine (W2_arr m ρ c 5).trans ?_
  rw [Cert.KernelIdeal.Layer0.final (V1 m ρ) c]
  show conv (W1 m ρ c (Proc.devRef .tc main_arg0)) (W1 m ρ c (Proc.devRef .tc main_v13)) (W1 m ρ c (Proc.devRef .tc main_arg2))
    (W1 m ρ c (Proc.devRef .tc main_arg3)) (W1 m ρ c (Proc.devRef .tc main_v14)) = _
  rw [w1_arg0, w1_v13, w1_arg2, w1_arg3, w1_v14, reshape_row]
  rfl

/-! ## Layer 2 -/

theorem w3_v15 : W3 m ρ c (Proc.devRef .tc main_v15) = h1 m c :=
  (show StableHlo.after hostOps1 (W2 m ρ c) (Proc.devRef .tc main_v15) = W2 m ρ c (Proc.devRef .tc main_v15) from by after_results).trans
    (w2_v15 m ρ c)

theorem w3_v25 : W3 m ρ c (Proc.devRef .tc main_v25) = aggregate (h1 m c) (srcRow (m ((c.tc : Thread nD τ).loc main_arg1))) (dstRow (m ((c.tc : Thread nD τ).loc main_arg1))) := by
  have e : StableHlo.after hostOps1 (W2 m ρ c) (Proc.devRef .tc main_v25)
      = aggregate (W2 m ρ c (Proc.devRef .tc main_v15)) (W2 m ρ c (Proc.devRef .tc main_v1)) (W2 m ρ c (Proc.devRef .tc main_v3)) := by
    after_results
    rfl
  exact e.trans (by rw [w2_v15, w2_v1, w2_v3])

theorem w3_v26 : W3 m ρ c (Proc.devRef .tc main_v26) = shapeCast S1x64 (m ((c.tc : Thread nD τ).loc main_arg7)) Facts₀.shapeCasts_S64_S1x64 := by
  have e : StableHlo.after hostOps1 (W2 m ρ c) (Proc.devRef .tc main_v26)
      = shapeCast S1x64 (W2 m ρ c (Proc.devRef .tc main_arg7)) Facts₀.shapeCasts_S64_S1x64 := by
    after_results
    rfl
  exact e.trans (by rw [w2_arg7])

theorem w4_v27 : W4 m ρ c (Proc.devRef .tc main_v27) = h2 m c := by
  refine (W4_arr m ρ c 5).trans ?_
  rw [Cert.KernelIdeal.Layer1.final (V3 m ρ) c]
  show conv (W3 m ρ c (Proc.devRef .tc main_v15)) (W3 m ρ c (Proc.devRef .tc main_v25)) (W3 m ρ c (Proc.devRef .tc main_arg5))
    (W3 m ρ c (Proc.devRef .tc main_arg6)) (W3 m ρ c (Proc.devRef .tc main_v26)) = _
  rw [w3_v15, w3_v25, w3_arg5, w3_arg6, w3_v26, reshape_row]
  rfl

/-! ## Layer 3 -/

theorem w5_v27 : W5 m ρ c (Proc.devRef .tc main_v27) = h2 m c :=
  (show StableHlo.after hostOps2 (W4 m ρ c) (Proc.devRef .tc main_v27) = W4 m ρ c (Proc.devRef .tc main_v27) from by after_results).trans
    (w4_v27 m ρ c)

theorem w5_v37 : W5 m ρ c (Proc.devRef .tc main_v37) = aggregate (h2 m c) (srcRow (m ((c.tc : Thread nD τ).loc main_arg1))) (dstRow (m ((c.tc : Thread nD τ).loc main_arg1))) := by
  have e : StableHlo.after hostOps2 (W4 m ρ c) (Proc.devRef .tc main_v37)
      = aggregate (W4 m ρ c (Proc.devRef .tc main_v27)) (W4 m ρ c (Proc.devRef .tc main_v1)) (W4 m ρ c (Proc.devRef .tc main_v3)) := by
    after_results
    rfl
  exact e.trans (by rw [w4_v27, w4_v1, w4_v3])

theorem w5_v38 : W5 m ρ c (Proc.devRef .tc main_v38) = shapeCast S1x64 (m ((c.tc : Thread nD τ).loc main_arg10)) Facts₀.shapeCasts_S64_S1x64 := by
  have e : StableHlo.after hostOps2 (W4 m ρ c) (Proc.devRef .tc main_v38)
      = shapeCast S1x64 (W4 m ρ c (Proc.devRef .tc main_arg10)) Facts₀.shapeCasts_S64_S1x64 := by
    after_results
    rfl
  exact e.trans (by rw [w4_arg10])

theorem w6_v39 : W6 m ρ c (Proc.devRef .tc main_v39) = h3 m c := by
  refine (W6_arr m ρ c 5).trans ?_
  rw [Cert.KernelIdeal.Layer2.final (V5 m ρ) c]
  show conv (W5 m ρ c (Proc.devRef .tc main_v27)) (W5 m ρ c (Proc.devRef .tc main_v37)) (W5 m ρ c (Proc.devRef .tc main_arg8))
    (W5 m ρ c (Proc.devRef .tc main_arg9)) (W5 m ρ c (Proc.devRef .tc main_v38)) = _
  rw [w5_v27, w5_v37, w5_arg8, w5_arg9, w5_v38, reshape_row]
  rfl

/-! ## The head -/

theorem w7_v39 : W7 m ρ c (Proc.devRef .tc main_v39) = h3 m c :=
  (show StableHlo.after hostOps3 (W6 m ρ c) (Proc.devRef .tc main_v39) = W6 m ρ c (Proc.devRef .tc main_v39) from by after_results).trans
    (w6_v39 m ρ c)

theorem w7_v40 : W7 m ρ c (Proc.devRef .tc main_v40) = shapeCast S1x1 (m ((c.tc : Thread nD τ).loc main_arg12)) Facts₀.shapeCasts_S1_S1x1 := by
  have e : StableHlo.after hostOps3 (W6 m ρ c) (Proc.devRef .tc main_v40)
      = shapeCast S1x1 (W6 m ρ c (Proc.devRef .tc main_arg12)) Facts₀.shapeCasts_S1_S1x1 := by
    after_results
    rfl
  exact e.trans (by rw [w6_arg12])

/-- The result buffer at the last boundary is the network of the launch arrays. -/
theorem result : W8 m ρ c (Proc.devRef .tc main_v41)
    = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (W8_arr m ρ c 3).trans ?_
  rw [Cert.KernelIdeal.Head.final (V7 m ρ) c]
  show head Cert.KernelIdeal.Head.lo Cert.KernelIdeal.Head.hi (W7 m ρ c (Proc.devRef .tc main_v39)) (W7 m ρ c (Proc.devRef .tc main_arg11))
    (W7 m ρ c (Proc.devRef .tc main_v40)) = _
  rw [w7_v39, w7_arg11, w7_v40, reshape_row]
  rfl

end Cert.KernelIdeal.Result

end
-- ==== Proof.RefStages.lean ====
/-
  The reference's result as the network of its arguments.

  The reference is one line of host operations. Read stage by stage: a layer's stage is
      (x · wr  +  aggregate(x) · wn)  +  the bias broadcast to a 1×64 row and then down the rows,
  with aggregate spelt by the same gather and scatter-add as in the network's definition (the gather's start indices
  are the source row with negative entries wrapped once, the scatter's the destination row), so it is the
  convolution layer of the bias as a row; the second and the third layer are the SAME stage applied to the previous
  layer's features (the program repeats the operations verbatim, re-deriving the wrapped indices each time); the last
  stage clamps  h · wout + bout  between the words of -4.0 and 4.0 by a maximum and then a minimum, which is the head.
-/
import proofs.«118440_j65395172049088_1_alg».proof.Defs
import proofs.«118440_j65395172049088_1_alg».proof.Proof.Gen.ReferenceIdeal.Run
import proofs.«118440_j65395172049088_1_alg».proof.Proof.Gen.ReferenceIdeal.Read
import proofs.«118440_j65395172049088_1_alg».proof.Proof.Network

set_option maxRecDepth 16384

noncomputable section

namespace Cert.ReferenceIdeal.Stages

open Cert.ReferenceIdeal Cert.ReferenceIdeal.Read Cert.Net Cert.GraphConv
open Idealize.ShloMosaic Idealize.ShloMosaic.TcCoe

/-- The reference's products contract the left operand's second axis against the right operand's first. -/
theorem plain64 : Cert.PlainDot.IsPlain dot_S100000x64_S64x64_S100000x64_1_0_0_1_n_n := ⟨rfl, rfl, rfl, rfl, rfl, rfl⟩
theorem plain1 : Cert.PlainDot.IsPlain dot_S100000x64_S64x1_S100000x1_1_0_0_1_n_n := ⟨rfl, rfl, rfl, rfl, rfl, rfl⟩

/-- The first layer's stage is the layer of the network. -/
theorem layer_eq (x : Feat) (e : Edges) (wr wn : Wt) (b : Bias) :
    val_main_v19 (F := Ideal) x e wr wn b = layer (srcRow e) (dstRow e) x wr wn b := by
  unfold val_main_v19 val_main_v16 val_main_v14 val_main_v15 val_main_v18
  rw [conv_host plain64]
  unfold val_main_v17
  rw [bcast_row]
  rfl

/-- The second layer's stage is the first layer's stage at the first layer's features. -/
theorem second_eq (x0 : Feat) (x1 : Edges) (x2 x3 : Wt) (x4 : Bias) (x5 x6 : Wt) (x7 : Bias) :
    val_main_v35 (F := Ideal) x0 x1 x2 x3 x4 x5 x6 x7 = val_main_v19 (F := Ideal) (val_main_v19 (F := Ideal) x0 x1 x2 x3 x4) x1 x5 x6 x7 := rfl

/-- The third layer's stage is the first layer's stage at the second layer's features. -/
theorem third_eq (x0 : Feat) (x1 : Edges) (x2 x3 : Wt) (x4 : Bias) (x5 x6 : Wt) (x7 : Bias) (x8 x9 : Wt) (x10 : Bias) :
    val_main_v51 (F := Ideal) x0 x1 x2 x3 x4 x5 x6 x7 x8 x9 x10
      = val_main_v19 (F := Ideal) (val_main_v35 (F := Ideal) x0 x1 x2 x3 x4 x5 x6 x7) x1 x8 x9 x10 := rfl

/-- The last stage is the head of the third layer's features. -/
theorem head_eq (x0 : Feat) (x1 : Edges) (x2 x3 : Wt) (x4 : Bias) (x5 x6 : Wt) (x7 : Bias) (x8 x9 : Wt) (x10 : Bias)
    (x11 : WOut) (x12 : BOut) :
    val_main_v56 (F := Ideal) x0 x1 x2 x3 x4 x5 x6 x7 x8 x9 x10 x11 x12
      = head lo hi (val_main_v51 (F := Ideal) x0 x1 x2 x3 x4 x5 x6 x7 x8 x9 x10) x11 (row x12) := by
  unfold val_main_v56 val_main_call0_v4 val_main_call0_v3 val_main_cst_8 val_main_call0_v2 val_main_call0_v1 val_main_call0_v0
    val_main_cst_7 val_main_v55 val_main_v52 val_main_v54
  refine (head_host plain1 none 0xC0800000#32 0x40800000#32 _ _ _ _ _).trans ?_
  unfold val_main_v53
  rw [bcast_row]

/-- The reference's last stage is the network of its arguments. -/
theorem ref_eq (x0 : Feat) (x1 : Edges) (x2 x3 : Wt) (x4 : Bias) (x5 x6 : Wt) (x7 : Bias) (x8 x9 : Wt) (x10 : Bias)
    (x11 : WOut) (x12 : BOut) :
    val_main_v56 (F := Ideal) x0 x1 x2 x3 x4 x5 x6 x7 x8 x9 x10 x11 x12 = net x0 x1 x2 x3 x4 x5 x6 x7 x8 x9 x10 x11 x12 := by
  rw [head_eq, third_eq, second_eq, layer_eq, layer_eq, layer_eq]
  rfl

end Cert.ReferenceIdeal.Stages

end
-- ==== Proof.lean ====
/-
  The proof of `Cert.Claim`: frame_Kernel ∧ frame_KernelIdeal ∧ frame_ReferenceIdeal ∧ preserves_Kernel_KernelIdeal ∧
  algebraic_KernelIdeal_ReferenceIdeal, behind the witnesses of the programs' stated side conditions.

  Both programs compute a three-layer graph network with a clamped linear head,
      h ↦ h · wr + aggregate(h) · wn + b   (three times),     then   min(4, max(-4, h · wout + bout)),
  aggregate(h) being the sum over edges, into each destination row, of the source rows of h. The kernel computes each
  layer's products and bias, and the head, in a pipelined region over 20 tiles of 5000 node rows, with the gather and
  scatter-add of the aggregate left to the host between regions; the reference is one line of host operations. On
  the extended reals the two results are the same function `Cert.Net.net` of the thirteen arguments:

  * a tile's block of a layer is the block of the layer of the whole arrays, an entry depending on one row of the
    features only, and the tiles cover every row (Proof/Layer0, Layer1, Layer2, Head over Proof/LibGraphConv);
  * the kernel's run ends with its result buffer at the fold of those regions and the host stretches between them,
    which is `net` of the launch arrays (Proof/KernelRun, Proof/Carry, Proof/KernelValue);
  * the reference's run ends at its operations' composed term, which is `net` of its arguments (Proof/RefStages over the
    generated run and its stage-by-stage reading).

  No law of arithmetic beyond reading a product as a sum is used, so the precondition is never opened. The idealization's
  ledger is empty, so `preserves` is trivial; the frames are the generated frame of each kernel program and the
  reference's generated run with its result dropped.
-/
import proofs.«118440_j65395172049088_1_alg».proof.Defs
import proofs.«118440_j65395172049088_1_alg».proof.Proof.Gen.Kernel
import proofs.«118440_j65395172049088_1_alg».proof.Proof.Gen.Kernel.Skeleton
import proofs.«118440_j65395172049088_1_alg».proof.Proof.Gen.Kernel.Launch
import proofs.«118440_j65395172049088_1_alg».proof.Proof.Gen.Kernel.Points
import proofs.«118440_j65395172049088_1_alg».proof.Proof.Gen.Kernel.Frame
import proofs.«118440_j65395172049088_1_alg».proof.Proof.Gen.KernelIdeal
import proofs.«118440_j65395172049088_1_alg».proof.Proof.Gen.KernelIdeal.Skeleton
import proofs.«118440_j65395172049088_1_alg».proof.Proof.Gen.KernelIdeal.Launch
import proofs.«118440_j65395172049088_1_alg».proof.Proof.Gen.KernelIdeal.Points
import proofs.«118440_j65395172049088_1_alg».proof.Proof.Gen.KernelIdeal.Frame
import proofs.«118440_j65395172049088_1_alg».proof.Proof.Gen.ReferenceIdeal
import proofs.«118440_j65395172049088_1_alg».proof.Proof.Gen.ReferenceIdeal.Run
import proofs.«118440_j65395172049088_1_alg».proof.Proof.Gen.ReferenceIdeal.Read
import proofs.«118440_j65395172049088_1_alg».proof.Proof.Gen.Pre_finite_inputs
import proofs.«118440_j65395172049088_1_alg».proof.Proof.KernelRun
import proofs.«118440_j65395172049088_1_alg».proof.Proof.KernelValue
import proofs.«118440_j65395172049088_1_alg».proof.Proof.RefStages
import Idealize.ShloMosaic.Adequacy
import Idealize.ShloMosaic.Init

set_option maxRecDepth 16384

noncomputable section

namespace Cert.Proof

open Idealize.ShloMosaic Idealize.SL.Sem

/-- The word-level kernel's frame: generated. -/
theorem frame_k : Cert.frame_Kernel := fun m ρ _ => Cert.Kernel.Gen.frame m ρ

/-- The idealized kernel's frame: generated. -/
theorem frame_ki : Cert.frame_KernelIdeal := fun m ρ _ => Cert.KernelIdeal.Gen.frame m ρ

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization applied no rule: nothing to preserve. -/
theorem preserves : Cert.preserves_Kernel_KernelIdeal := trivial

/-- On the extended reals, from memories agreeing on the arguments, both runs end with the result buffer at the
    network of the arguments. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Result.result m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Read.val_main_v56_eq, e0, e1, e2, e3, e4, e5, e6, e7, e8, e9, e10, e11, e12]
    exact Cert.ReferenceIdeal.Stages.ref_eq _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
